-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S800000 32) (main_arg6 : IVec S800000 32) (main_arg7 : IVec S800000 32) (main_arg8 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x1 : Shape := ⟨2, ![5000, 1]⟩

abbrev nBuf : Space → Nat
  | .hbm => 54
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S1x128, .f32⟩
  | .hbm, ⟨10, _⟩ => ⟨S1x128, .f32⟩
  | .hbm, ⟨11, _⟩ => ⟨S50000x128, .f32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S_, .f32⟩
  | .hbm, ⟨36, _⟩ => ⟨S800000, .f32⟩
  | .hbm, ⟨37, _⟩ => ⟨S_, .f32⟩
  | .hbm, ⟨38, _⟩ => ⟨S50000, .f32⟩
  | .hbm, ⟨39, _⟩ => ⟨S800000x1, .i32⟩
  | .hbm, ⟨40, _⟩ => ⟨S50000, .f32⟩
  | .hbm, ⟨41, _⟩ => ⟨S50000x1, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S50000x1, .f32⟩
  | .hbm, ⟨53, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_1) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S800000, .i32⟩
  | .hbm, ⟨6, _⟩ => ⟨S800000, .i32⟩
  | .hbm, ⟨7, _⟩ => ⟨S800000, .i32⟩
  | .hbm, ⟨8, _⟩ => ⟨S800000, .i32⟩
  | .hbm, ⟨9, _⟩ => ⟨S50000x128, .f32⟩
  | .hbm, ⟨10, _⟩ => ⟨S1x128, .f32⟩
  | .hbm, ⟨11, _⟩ => ⟨S50000x128, .f32⟩
  | .hbm, ⟨12, _⟩ => ⟨S50000x128, .f32⟩
  | .hbm, ⟨13, _⟩ => ⟨S50000x128, .f32⟩
  | .hbm, ⟨14, _⟩ => ⟨S1x128, .f32⟩
  | .hbm, ⟨15, _⟩ => ⟨S50000x128, .f32⟩
  | .hbm, ⟨16, _⟩ => ⟨S50000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S_, .f32⟩
  | .hbm, ⟨31, _⟩ => ⟨S800000, .f32⟩
  | .hbm, ⟨32, _⟩ => ⟨S_, .f32⟩
  | .hbm, ⟨33, _⟩ => ⟨S50000, .f32⟩
  | .hbm, ⟨34, _⟩ => ⟨S800000x1, .i32⟩
  | .hbm, ⟨35, _⟩ => ⟨S50000, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S_, .f32⟩
  | .hbm, ⟨56, _⟩ => ⟨S800000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.NamedRun.lean ====
/-
  The idealized kernel's run with its result array named.

  @main is two host stretches and two kernel regions.  The contents of every buffer at each boundary are a fold from the
  launch memory: after the first stretch, after the first region (its two result arrays at what the write-backs of its
  ten grid points leave), after the second stretch, after the second region.  Every weakly fair execution terminates with
  the result buffer at that last fold, and with the nine argument arrays as launched.
-/
import proofs.«119673_j11716670783741_1_alg».proof.Defs
import proofs.«119673_j11716670783741_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, the result buffer holding the last boundary's contents at it and
    the argument arrays unchanged. -/
theorem run_named : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

/-- The result buffer's last contents are what the second region's ten write-backs leave in its result array. -/
theorem W4_result (c : Dev nD) :
    W4 m ρ c (Proc.devRef .tc main_v33) = (dat1 (V3 m ρ) c).arrAt 4 cfg1.N :=
  W4_arr m ρ c 4

end Cert.KernelIdeal.Hand

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.RelationMean.lean ====
/-
  Two relations' mean aggregation, as formulas over the extended reals.

  A node's transformed feature under a relation is an affine map of its input feature: entry `(n, d)` is
  `∑ k, x (n, k) * w (k, d) + b d`.  Once each relation's messages have been summed per destination node (`s`) and its
  incoming edges counted (`c`), the node's output is the sum over the two relations of `s (n, d) / max (c n) 1`: a mean
  over the incoming edges, a node with none dividing by one.  The count is written either as a vector `[N]` or as a
  column `[N, 1]`; both readings are given.  `1` is kept as the float word `0x3F800000` read at the ideal instance; it is
  the same word wherever it occurs and is never evaluated.
-/
import Idealize.ShloMosaic.PureOps.Ideal
import Idealize.ShloMosaic.Lib.ValueIdx

noncomputable section

namespace Idealize.ShloMosaic.RelationMean

open Idealize.ShloMosaic Idealize.ShloMosaic.ValueIdx

/-- The float word one, read at the ideal instance. -/
abbrev oneWord : EReal := Ideal.ofBits .f32 0x3F800000#32

/-- `x · w + b` with the bias held as a `[1, N]` row: entry `(n, d)` is `∑ k, x (n, k) * w (k, d) + b (0, d)`. -/
def affineRow {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal := fun i =>
  ∑ k : Fin K, x (ix2 (i 0) k) * w (ix2 k (i 1)) + b (ix2 (0 : Fin 1) (i 1))

theorem affineRow_apply {M K N : ℕ} (x : (⟨2, ![M, K]⟩ : Shape).Idx → EReal) (w : (⟨2, ![K, N]⟩ : Shape).Idx → EReal)
    (b : (⟨2, ![1, N]⟩ : Shape).Idx → EReal) (p : Fin M) (q : Fin N) :
    affineRow x w b (ix2 p q) = ∑ k : Fin K, x (ix2 p k) * w (ix2 k q) + b (ix2 (0 : Fin 1) q) := rfl

/-- The two relations' means added, the edge counts held as columns `[M, 1]`. -/
def meanSumCol {M N : ℕ} (s0 : (⟨2, ![M, N]⟩ : Shape).Idx → EReal) (c0 : (⟨2, ![M, 1]⟩ : Shape).Idx → EReal)
    (s1 : (⟨2, ![M, N]⟩ : Shape).Idx → EReal) (c1 : (⟨2, ![M, 1]⟩ : Shape).Idx → EReal) :
    (⟨2, ![M, N]⟩ : Shape).Idx → EReal := fun i =>
  Ideal.div (s0 i) (max (c0 (ix2 (i 0) (0 : Fin 1))) oneWord) + Ideal.div (s1 i) (max (c1 (ix2 (i 0) (0 : Fin 1))) oneWord)

theorem meanSumCol_apply {M N : ℕ} (s0 : (⟨2, ![M, N]⟩ : Shape).Idx → EReal) (c0 : (⟨2, ![M, 1]⟩ : Shape).Idx → EReal)
    (s1 : (⟨2, ![M, N]⟩ : Shape).Idx → EReal) (c1 : (⟨2, ![M, 1]⟩ : Shape).Idx → EReal) (p : Fin M) (q : Fin N) :
    meanSumCol s0 c0 s1 c1 (ix2 p q)
      = Ideal.div (s0 (ix2 p q)) (max (c0 (ix2 p (0 : Fin 1))) oneWord)
        + Ideal.div (s1 (ix2 p q)) (max (c1 (ix2 p (0 : Fin 1))) oneWord) := rfl

/-- The two relations' means added, the edge counts held as vectors `[M]`. -/
def meanSumVec {M N : ℕ} (s0 : (⟨2, ![M, N]⟩ : Shape).Idx → EReal) (c0 : (⟨1, ![M]⟩ : Shape).Idx → EReal)
    (s1 : (⟨2, ![M, N]⟩ : Shape).Idx → EReal) (c1 : (⟨1, ![M]⟩ : Shape).Idx → EReal) :
    (⟨2, ![M, N]⟩ : Shape).Idx → EReal := fun i =>
  Ideal.div (s0 i) (max (c0 (ix1 (i 0))) oneWord) + Ideal.div (s1 i) (max (c1 (ix1 (i 0))) oneWord)

theorem meanSumVec_apply {M N : ℕ} (s0 : (⟨2, ![M, N]⟩ : Shape).Idx → EReal) (c0 : (⟨1, ![M]⟩ : Shape).Idx → EReal)
    (s1 : (⟨2, ![M, N]⟩ : Shape).Idx → EReal) (c1 : (⟨1, ![M]⟩ : Shape).Idx → EReal) (p : Fin M) (q : Fin N) :
    meanSumVec s0 c0 s1 c1 (ix2 p q)
      = Ideal.div (s0 (ix2 p q)) (max (c0 (ix1 p)) oneWord) + Ideal.div (s1 (ix2 p q)) (max (c1 (ix1 p)) oneWord) := rfl

end Idealize.ShloMosaic.RelationMean

end
-- ==== Proof.LinearValue.lean ====
/-
  What the first kernel region leaves in its two result arrays.

  The region's grid has ten points; point `t` works on rows `5000 t … 5000 t + 4999` of the node features.  Its body
  multiplies that block of rows by a whole `128 × 128` weight matrix and adds a bias row, once per relation.  So the
  entry `(p, q)` of the block it writes back is `∑ k, x (5000 t + p, k) * w (k, q) + b (0, q)`: the entry
  `(5000 t + p, q)` of the affine map of the whole feature array.  The ten blocks tile the rows, so after the region each
  result array is that affine map, whatever contents the region was entered with.
-/
import proofs.«119673_j11716670783741_1_alg».proof.Proof.Gen.KernelIdeal.Frame
import proofs.«119673_j11716670783741_1_alg».proof.Proof.LibPlainDot
import proofs.«119673_j11716670783741_1_alg».proof.Proof.RelationMean
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- The body's matrix product contracts the left operand's columns with the right operand's rows. -/
theorem dot_plain : dot_S5000x128_S128x128_S5000x128_1_0_0_1_n_n = DotDims.plain 5000 128 128 := rfl

/-- The first relation's stored value at `(p, q)`: the row `p` of the feature block against column `q` of the weights,
    plus the bias row at `q`. -/
theorem pay2_apply (x0 : Vec Ideal S5000x128 .f32) (x1 : Vec Ideal S128x128 .f32) (x2 : Vec Ideal S1x128 .f32)
    (p : Fin 5000) (q : Fin 128) :
    k0_pay2 (F := Ideal) x0 x1 x2 (ix2 p q) = ∑ k : Fin 128, x0 (ix2 p k) * x1 (ix2 k q) + x2 (ix2 (0 : Fin 1) q) := by
  unfold k0_pay2 k0_pay1
  dsimp only
  rw [addf_apply]
  refine congrArg₂ (· + ·) (PlainDot.matmul_zero_apply _ dot_plain none _ _ p q) ?_
  exact (broadcastTo_1b_ab_apply _ _ p q).trans (congrFun (shapeCast_self _ _) _)

/-- The second relation's stored value is the same expression of its own weights and bias. -/
theorem pay3_apply (x0 : Vec Ideal S5000x128 .f32) (x3 : Vec Ideal S128x128 .f32) (x4 : Vec Ideal S1x128 .f32)
    (p : Fin 5000) (q : Fin 128) :
    k0_pay3 (F := Ideal) x0 x3 x4 (ix2 p q) = ∑ k : Fin 128, x0 (ix2 p k) * x3 (ix2 k q) + x4 (ix2 (0 : Fin 1) q) :=
  pay2_apply x0 x3 x4 p q

section Region
variable (V : (c : Dev nD) → (b : Ref sig .tc) → Buf (Elt Ideal) ((c : Thread nD τ).loc b))

/-- The index maps over the ten grid points: the feature window and both result windows take row block `t`; the
    weight and bias windows stay on their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `p` of the feature window's block at point `t` is row `5000 t + p` of the feature array. -/
theorem featBlock_apply (c : Dev nD) (t : Fin cfg0.N) (p : Fin 5000) (k : Fin 128) (r : Fin 50000)
    (hr : r.val = t.val * 5000 + p.val) :
    (iblk0 V c 0 t : Vec Ideal S5000x128 .f32) (ix2 p k) = (V c main_arg0 : S50000x128.Idx → EReal) (ix2 r k) := by
  obtain ⟨e0, e1, -⟩ := idx_facts0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The first weight window's one block is the whole weight matrix. -/
theorem weightBlock0_apply (c : Dev nD) (t : Fin cfg0.N) (k q : Fin 128) :
    (iblk0 V c 1 t : Vec Ideal S128x128 .f32) (ix2 k q) = (V c main_arg1 : S128x128.Idx → EReal) (ix2 k q) := by
  obtain ⟨-, -, e2, e3, -⟩ := idx_facts0 t
  unfold iblk0
  rw [View.read_apply]
  show V c main_arg1 _ = V c main_arg1 _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The first bias window's one block is the whole bias row. -/
theorem biasBlock0_apply (c : Dev nD) (t : Fin cfg0.N) (z : Fin 1) (q : Fin 128) :
    (iblk0 V c 2 t : Vec Ideal S1x128 .f32) (ix2 z q) = (V c main_v0 : S1x128.Idx → EReal) (ix2 z q) := by
  obtain ⟨-, -, -, -, e4, e5, -⟩ := idx_facts0 t
  unfold iblk0
  rw [View.read_apply]
  show V c main_v0 _ = V c main_v0 _
  refine congrArg _ (funext fun a => Fin.ext ?_)
  match a with
  | ⟨0, _⟩ => show win0_2.index t (0 : Fin 2) * 1 + 1 * z.val = z.val; rw [e4]; omega
  | ⟨1, _⟩ => show win0_2.index t (1 : Fin 2) * 128 + 1 * q.val = q.val; rw [e5]; omega

/-- The second weight window's one block is the whole weight matrix. -/
theorem weightBlock1_apply (c : Dev nD) (t : Fin cfg0.N) (k q : Fin 128) :
    (iblk0 V c 3 t : Vec Ideal S128x128 .f32) (ix2 k q) = (V c main_arg3 : S128x128.Idx → EReal) (ix2 k q) := by
  obtain ⟨-, -, -, -, -, -, e6, e7, -⟩ := idx_facts0 t
  unfold iblk0
  rw [View.read_apply]
  show V c main_arg3 _ = V c main_arg3 _
  refine congrArg _ (funext fun a => Fin.ext ?_)
  match a with
  | ⟨0, _⟩ => show win0_3.index t (0 : Fin 2) * 128 + 1 * k.val = k.val; rw [e6]; omega
  | ⟨1, _⟩ => show win0_3.index t (1 : Fin 2) * 128 + 1 * q.val = q.val; rw [e7]; omega

/-- The second bias window's one block is the whole bias row. -/
theorem biasBlock1_apply (c : Dev nD) (t : Fin cfg0.N) (z : Fin 1) (q : Fin 128) :
    (iblk0 V c 4 t : Vec Ideal S1x128 .f32) (ix2 z q) = (V c main_v1 : S1x128.Idx → EReal) (ix2 z q) := by
  obtain ⟨-, -, -, -, -, -, -, -, e8, e9, -⟩ := idx_facts0 t
  unfold iblk0
  rw [View.read_apply]
  show V c main_v1 _ = V c main_v1 _
  refine congrArg _ (funext fun a => Fin.ext ?_)
  match a with
  | ⟨0, _⟩ => show win0_4.index t (0 : Fin 2) * 1 + 1 * z.val = z.val; rw [e8]; omega
  | ⟨1, _⟩ => show win0_4.index t (1 : Fin 2) * 128 + 1 * q.val = q.val; rw [e9]; omega

/-- The first relation's transformed features as one function of the arrays the region is entered with. -/
abbrev lin0 (c : Dev nD) : S50000x128.Idx → EReal :=
  RelationMean.affineRow (M := 50000) (K := 128) (N := 128) (V c main_arg0) (V c main_arg1) (V c main_v0)

/-- The second relation's. -/
abbrev lin1 (c : Dev nD) : S50000x128.Idx → EReal :=
  RelationMean.affineRow (M := 50000) (K := 128) (N := 128) (V c main_arg0) (V c main_arg3) (V c main_v1)

/-- What point `t` writes back to the first result array is block `t` of the affine map of the whole feature array. -/
theorem flushed5_eq (c : Dev nD) (t : Fin cfg0.N) :
    (dat0 V c).flushed 5 t = ((cfg0.win 5).blk t).view.read (Elt Ideal) (lin0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, e10, e11, -⟩ := idx_facts0 t
  have ht : t.val < 10 := Nat.lt_of_lt_of_eq t.isLt (show cfg0.N = 10 from N_0)
  show k0_pay2 (F := Ideal) (iblk0 V c 0 t) (iblk0 V c 1 t) (iblk0 V c 2 t) (ix2 p q)
    = lin0 V c (((cfg0.win 5).blk t).view.emb (ix2 p q))
  refine (pay2_apply _ _ _ p q).trans ?_
  have hlt : t.val * 5000 + p.val < 50000 := by omega
  have hemb : ((cfg0.win 5).blk t).view.emb (ix2 p q)
      = (ix2 (⟨t.val * 5000 + p.val, hlt⟩ : Fin 50000) q : S50000x128.Idx) := by
    funext a
    apply Fin.ext
    match a with
    | ⟨0, _⟩ => show win0_5.index t (0 : Fin 2) * 5000 + 1 * p.val = t.val * 5000 + p.val; rw [e10]; omega
    | ⟨1, _⟩ => show win0_5.index t (1 : Fin 2) * 128 + 1 * q.val = q.val; rw [e11]; omega
  rw [hemb]
  refine Eq.trans ?_ (RelationMean.affineRow_apply (M := 50000) (K := 128) (N := 128) (V c main_arg0) (V c main_arg1)
    (V c main_v0) ⟨t.val * 5000 + p.val, hlt⟩ q).symm
  simp only [featBlock_apply V c t p _ ⟨t.val * 5000 + p.val, hlt⟩ rfl, weightBlock0_apply V c t, biasBlock0_apply V c t]

/-- The same for the second result array. -/
theorem flushed6_eq (c : Dev nD) (t : Fin cfg0.N) :
    (dat0 V c).flushed 6 t = ((cfg0.win 6).blk t).view.read (Elt Ideal) (lin1 V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  obtain ⟨-, -, -, -, -, -, -, -, -, -, -, -, e12, e13⟩ := idx_facts0 t
  have ht : t.val < 10 := Nat.lt_of_lt_of_eq t.isLt (show cfg0.N = 10 from N_0)
  show k0_pay3 (F := Ideal) (iblk0 V c 0 t) (iblk0 V c 3 t) (iblk0 V c 4 t) (ix2 p q)
    = lin1 V c (((cfg0.win 6).blk t).view.emb (ix2 p q))
  refine (pay3_apply _ _ _ p q).trans ?_
  have hlt : t.val * 5000 + p.val < 50000 := by omega
  have hemb : ((cfg0.win 6).blk t).view.emb (ix2 p q)
      = (ix2 (⟨t.val * 5000 + p.val, hlt⟩ : Fin 50000) q : S50000x128.Idx) := by
    funext a
    apply Fin.ext
    match a with
    | ⟨0, _⟩ => show win0_6.index t (0 : Fin 2) * 5000 + 1 * p.val = t.val * 5000 + p.val; rw [e12]; omega
    | ⟨1, _⟩ => show win0_6.index t (1 : Fin 2) * 128 + 1 * q.val = q.val; rw [e13]; omega
  rw [hemb]
  refine Eq.trans ?_ (RelationMean.affineRow_apply (M := 50000) (K := 128) (N := 128) (V c main_arg0) (V c main_arg3)
    (V c main_v1) ⟨t.val * 5000 + p.val, hlt⟩ q).symm
  simp only [featBlock_apply V c t p _ ⟨t.val * 5000 + p.val, hlt⟩ rfl, weightBlock1_apply V c t, biasBlock1_apply V c t]

/-- An index of the first result array is in point `t`'s block iff each coordinate is in the block's range. -/
theorem mem_blk5 (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v2_0).slice (win0_5.rect t)).set ↔ _
  rw [View.set_slice_whole, Rect.mem_set_unit]
  exact Iff.rfl

theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v2_1).slice (win0_6.rect t)).set ↔ _
  rw [View.set_slice_whole, Rect.mem_set_unit]
  exact Iff.rfl

/-- The point whose block holds row `r` is `r / 5000`. -/
def pointOfRow (r : Fin 50000) : Fin cfg0.N := ⟨r.val / 5000, by rw [show cfg0.N = 10 from N_0]; have := r.isLt; omega⟩

/-- After the region the first result array is the affine map of the whole feature array. -/
theorem final5 (c : Dev nD) : (dat0 V c).arrAt 5 cfg0.N = lin0 V c :=
  (dat0 V c).arrAt_eq_of_cover 5 (lin0 V c) (fun t _ => flushed5_eq V c t) fun i => by
    have hi0 : (i 0).val < 50000 := idx2_lt0 i
    have hi1 : (i 1).val < 128 := idx2_lt1 i
    refine ⟨pointOfRow ⟨(i 0).val, hi0⟩, flush0_5 _, ?_⟩
    obtain ⟨-, -, -, -, -, -, -, -, -, -, e10, e11, -⟩ := idx_facts0 (pointOfRow ⟨(i 0).val, hi0⟩)
    rw [mem_blk5]
    intro a
    match a with
    | ⟨0, _⟩ =>
      show win0_5.index _ (0 : Fin 2) * 5000 ≤ (i 0).val ∧ (i 0).val < win0_5.index _ (0 : Fin 2) * 5000 + 5000
      rw [e10]; show (i 0).val / 5000 * 5000 ≤ (i 0).val ∧ (i 0).val < (i 0).val / 5000 * 5000 + 5000; omega
    | ⟨1, _⟩ =>
      show win0_5.index _ (1 : Fin 2) * 128 ≤ (i 1).val ∧ (i 1).val < win0_5.index _ (1 : Fin 2) * 128 + 128
      rw [e11]; omega

/-- After the region the second result array is the second relation's affine map. -/
theorem final6 (c : Dev nD) : (dat0 V c).arrAt 6 cfg0.N = lin1 V c :=
  (dat0 V c).arrAt_eq_of_cover 6 (lin1 V c) (fun t _ => flushed6_eq V c t) fun i => by
    have hi0 : (i 0).val < 50000 := idx2_lt0 i
    have hi1 : (i 1).val < 128 := idx2_lt1 i
    refine ⟨pointOfRow ⟨(i 0).val, hi0⟩, flush0_6 _, ?_⟩
    obtain ⟨-, -, -, -, -, -, -, -, -, -, -, -, e12, e13⟩ := idx_facts0 (pointOfRow ⟨(i 0).val, hi0⟩)
    rw [mem_blk6]
    intro a
    match a with
    | ⟨0, _⟩ =>
      show win0_6.index _ (0 : Fin 2) * 5000 ≤ (i 0).val ∧ (i 0).val < win0_6.index _ (0 : Fin 2) * 5000 + 5000
      rw [e12]; show (i 0).val / 5000 * 5000 ≤ (i 0).val ∧ (i 0).val < (i 0).val / 5000 * 5000 + 5000; omega
    | ⟨1, _⟩ =>
      show win0_6.index _ (1 : Fin 2) * 128 ≤ (i 1).val ∧ (i 1).val < win0_6.index _ (1 : Fin 2) * 128 + 128
      rw [e13]; omega

end Region

end Cert.KernelIdeal.Hand

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.CombineValue.lean ====
/-
  What the second kernel region leaves in its result array.

  The region's grid has ten points; point `t` works on rows `5000 t … 5000 t + 4999` of the two per-relation message
  sums (`[50000, 128]`) and of the two per-relation edge counts, held as columns (`[50000, 1]`).  Its body raises each
  count to at least one, spreads it along the row, divides each sum by it and adds the two quotients.  So the entry
  `(p, q)` of the block it writes back is `s0 (r, q) / max (c0 (r, 0)) 1 + s1 (r, q) / max (c1 (r, 0)) 1` at the row
  `r = 5000 t + p`, and the ten blocks tile the rows.
-/
import proofs.«119673_j11716670783741_1_alg».proof.Proof.Gen.KernelIdeal.Frame
import proofs.«119673_j11716670783741_1_alg».proof.Proof.LibColumns
import proofs.«119673_j11716670783741_1_alg».proof.Proof.RelationMean
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz' : (![0, 0] : Fin 2 → Nat) = fun _ => 0 := funext fun a => by fin_cases a <;> rfl

/-- The stored value at `(p, q)`: each relation's sum at `(p, q)` over its count at row `p` raised to at least one. -/
theorem pay1_apply (v0 v4 : Vec Ideal S5000x1 .f32) (v8 v12 : Vec Ideal S5000x128 .f32) (p : Fin 5000) (q : Fin 128) :
    k1_pay1 (F := Ideal) v0 v4 v8 v12 (ix2 p q)
      = Ideal.div (v8 (ix2 p q)) (max (v0 (ix2 p (0 : Fin 1))) RelationMean.oneWord)
        + Ideal.div (v12 (ix2 p q)) (max (v4 (ix2 p (0 : Fin 1))) RelationMean.oneWord) := by
  unfold k1_pay1
  try dsimp only
  rw [addf_apply, divf_apply, divf_apply, broadcastTo_a1_ab_apply, broadcastTo_a1_ab_apply,
    shapeCast_self, shapeCast_self, shapeCast_self, shapeCast_self]
  rfl

section Region
variable (V : (c : Dev nD) → (b : Ref sig .tc) → Buf (Elt Ideal) ((c : Thread nD τ).loc b))

/-- The index maps over the ten grid points: every window takes row block `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of the first sum window's block at point `t` is row `5000 t + p` of the first relation's message sums. -/
theorem sumBlock0_apply (c : Dev nD) (t : Fin cfg1.N) (p : Fin 5000) (q : Fin 128) (r : Fin 50000)
    (hr : r.val = t.val * 5000 + p.val) :
    (iblk1 V c 0 t : Vec Ideal S5000x128 .f32) (ix2 p q) = (V c main_v19 : S50000x128.Idx → EReal) (ix2 r q) := by
  obtain ⟨e0, e1, -⟩ := idx_facts1 t
  unfold iblk1
  rw [View.read_apply]
  show V c main_v19 _ = V c main_v19 _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Row `p` of the first count window's block at point `t` is row `5000 t + p` of the first relation's count column. -/
theorem cntBlock0_apply (c : Dev nD) (t : Fin cfg1.N) (p : Fin 5000) (z : Fin 1) (r : Fin 50000)
    (hr : r.val = t.val * 5000 + p.val) :
    (iblk1 V c 1 t : Vec Ideal S5000x1 .f32) (ix2 p z) = (V c main_v24 : S50000x1.Idx → EReal) (ix2 r z) := by
  obtain ⟨-, -, e2, e3, -⟩ := idx_facts1 t
  unfold iblk1
  rw [View.read_apply]
  show V c main_v24 _ = V c main_v24 _
  refine congrArg _ (funext fun a => Fin.ext ?_)
  match a with
  | ⟨0, _⟩ => show win1_1.index t (0 : Fin 2) * 5000 + 1 * p.val = r.val; rw [e2, hr]; omega
  | ⟨1, _⟩ => show win1_1.index t (1 : Fin 2) * 1 + 1 * z.val = z.val; rw [e3]; omega

/-- The same for the second relation's message sums. -/
theorem sumBlock1_apply (c : Dev nD) (t : Fin cfg1.N) (p : Fin 5000) (q : Fin 128) (r : Fin 50000)
    (hr : r.val = t.val * 5000 + p.val) :
    (iblk1 V c 2 t : Vec Ideal S5000x128 .f32) (ix2 p q) = (V c main_v27 : S50000x128.Idx → EReal) (ix2 r q) := by
  obtain ⟨-, -, -, -, e4, e5, -⟩ := idx_facts1 t
  unfold iblk1
  rw [View.read_apply]
  show V c main_v27 _ = V c main_v27 _
  refine congrArg _ (funext fun a => Fin.ext ?_)
  match a with
  | ⟨0, _⟩ => show win1_2.index t (0 : Fin 2) * 5000 + 1 * p.val = r.val; rw [e4, hr]; omega
  | ⟨1, _⟩ => show win1_2.index t (1 : Fin 2) * 128 + 1 * q.val = q.val; rw [e5]; omega

/-- The same for the second relation's count column. -/
theorem cntBlock1_apply (c : Dev nD) (t : Fin cfg1.N) (p : Fin 5000) (z : Fin 1) (r : Fin 50000)
    (hr : r.val = t.val * 5000 + p.val) :
    (iblk1 V c 3 t : Vec Ideal S5000x1 .f32) (ix2 p z) = (V c main_v32 : S50000x1.Idx → EReal) (ix2 r z) := by
  obtain ⟨-, -, -, -, -, -, e6, e7, -⟩ := idx_facts1 t
  unfold iblk1
  rw [View.read_apply]
  show V c main_v32 _ = V c main_v32 _
  refine congrArg _ (funext fun a => Fin.ext ?_)
  match a with
  | ⟨0, _⟩ => show win1_3.index t (0 : Fin 2) * 5000 + 1 * p.val = r.val; rw [e6, hr]; omega
  | ⟨1, _⟩ => show win1_3.index t (1 : Fin 2) * 1 + 1 * z.val = z.val; rw [e7]; omega

/-- The two relations' means added, as one function of the arrays the region is entered with. -/
abbrev comb (c : Dev nD) : S50000x128.Idx → EReal :=
  RelationMean.meanSumCol (M := 50000) (N := 128) (V c main_v19) (V c main_v24) (V c main_v27) (V c main_v32)

/-- What point `t` writes back is block `t` of the means' sum over the whole arrays. -/
theorem flushed4_eq (c : Dev nD) (t : Fin cfg1.N) :
    (dat1 V c).flushed 4 t = ((cfg1.win 4).blk t).view.read (Elt Ideal) (comb V c) := by
  show (cfg1.win 4).cut (grid1.coords t) ((dat1 V c).after 4 t) = _
  rw [after1_4]
  unfold out1_4
  rw [View.canon_unit_zero hz']
  simp only [View.ld_unit_zero (S := S5000x128) hz', View.ld_unit_zero (S := S5000x1) hz']
  funext j
  obtain ⟨p, q, rfl⟩ : ∃ (p : Fin 5000) (q : Fin 128), j = ix2 p q := ⟨j 0, j 1, eq_ix2 j⟩
  obtain ⟨-, -, -, -, -, -, -, -, e8, e9⟩ := idx_facts1 t
  have ht : t.val < 10 := Nat.lt_of_lt_of_eq t.isLt (show cfg1.N = 10 from N_1)
  show k1_pay1 (F := Ideal) (iblk1 V c 1 t) (iblk1 V c 3 t) (iblk1 V c 0 t) (iblk1 V c 2 t) (ix2 p q)
    = comb V c (((cfg1.win 4).blk t).view.emb (ix2 p q))
  refine (pay1_apply _ _ _ _ p q).trans ?_
  have hlt : t.val * 5000 + p.val < 50000 := by omega
  have hemb : ((cfg1.win 4).blk t).view.emb (ix2 p q)
      = (ix2 (⟨t.val * 5000 + p.val, hlt⟩ : Fin 50000) q : S50000x128.Idx) := by
    funext a
    apply Fin.ext
    match a with
    | ⟨0, _⟩ => show win1_4.index t (0 : Fin 2) * 5000 + 1 * p.val = t.val * 5000 + p.val; rw [e8]; omega
    | ⟨1, _⟩ => show win1_4.index t (1 : Fin 2) * 128 + 1 * q.val = q.val; rw [e9]; omega
  rw [hemb]
  refine Eq.trans ?_ (RelationMean.meanSumCol_apply (M := 50000) (N := 128) (V c main_v19) (V c main_v24) (V c main_v27)
    (V c main_v32) ⟨t.val * 5000 + p.val, hlt⟩ q).symm
  rw [sumBlock0_apply V c t p q ⟨t.val * 5000 + p.val, hlt⟩ rfl, cntBlock0_apply V c t p 0 ⟨t.val * 5000 + p.val, hlt⟩ rfl,
    sumBlock1_apply V c t p q ⟨t.val * 5000 + p.val, hlt⟩ rfl, cntBlock1_apply V c t p 0 ⟨t.val * 5000 + p.val, hlt⟩ rfl]

/-- An index of the result array is in point `t`'s block iff each coordinate is in the block's range. -/
theorem mem_blk4 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v33).slice (win1_4.rect t)).set ↔ _
  rw [View.set_slice_whole, Rect.mem_set_unit]
  exact Iff.rfl

/-- The point whose block holds row `r` is `r / 5000`. -/
def pointOfRow1 (r : Fin 50000) : Fin cfg1.N := ⟨r.val / 5000, by rw [show cfg1.N = 10 from N_1]; have := r.isLt; omega⟩

/-- After the region the result array is the two relations' means added. -/
theorem final4 (c : Dev nD) : (dat1 V c).arrAt 4 cfg1.N = comb V c :=
  (dat1 V c).arrAt_eq_of_cover 4 (comb V c) (fun t _ => flushed4_eq V c t) fun i => by
    have hi0 : (i 0).val < 50000 := idx2_lt0 i
    have hi1 : (i 1).val < 128 := idx2_lt1 i
    refine ⟨pointOfRow1 ⟨(i 0).val, hi0⟩, flush1_4 _, ?_⟩
    obtain ⟨-, -, -, -, -, -, -, -, e8, e9⟩ := idx_facts1 (pointOfRow1 ⟨(i 0).val, hi0⟩)
    rw [mem_blk4]
    intro a
    match a with
    | ⟨0, _⟩ =>
      show win1_4.index _ (0 : Fin 2) * 5000 ≤ (i 0).val ∧ (i 0).val < win1_4.index _ (0 : Fin 2) * 5000 + 5000
      rw [e8]; show (i 0).val / 5000 * 5000 ≤ (i 0).val ∧ (i 0).val < (i 0).val / 5000 * 5000 + 5000; omega
    | ⟨1, _⟩ =>
      show win1_4.index _ (1 : Fin 2) * 128 ≤ (i 1).val ∧ (i 1).val < win1_4.index _ (1 : Fin 2) * 128 + 128
      rw [e9]; omega

end Region

end Cert.KernelIdeal.Hand

end
-- ==== Proof.HostStretch.lean ====
/-
  The host operations between and before the two kernel regions, read as functions of the buffers they start from.

  Before the first region the two bias vectors are reshaped to rows `[1, 128]`.  Between the regions, per relation: a
  negative source node number is counted from the end; the transformed features are gathered at the source numbers of the
  edges; the gathered rows are added into zeros at the destination numbers (the per-destination message sum); ones are
  added into zeros at the destination numbers (the per-destination edge count), and the count is reshaped to a column.
  None of these operations is opened here: each result is named as one term of the starting buffers.
-/
import proofs.«119673_j11716670783741_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- One relation's messages summed per destination node: rows of `x` gathered at the edges' source numbers (a negative
    number counted from the end) and added into zeros at the edges' destination numbers. -/
def msgSum (x : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- One relation's incoming edges counted per destination node: ones added into zeros at the destination numbers. -/
def edgeCount (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

section Stretches
variable (W : Valuation τ sig (Elt F))

/-! ## Before the first region -/

theorem pre_bias0 : after hostOps0 W (Proc.devRef .tc main_v0)
    = shapeCast S1x128 (W (Proc.devRef .tc main_arg2)) shapeCasts_S128_S1x128 := by
  dsimp only [hostOps0]; after_results; rfl
theorem pre_bias1 : after hostOps0 W (Proc.devRef .tc main_v1)
    = shapeCast S1x128 (W (Proc.devRef .tc main_arg4)) shapeCasts_S128_S1x128 := by
  dsimp only [hostOps0]; after_results; rfl
theorem pre_arg0 : after hostOps0 W (Proc.devRef .tc main_arg0) = W (Proc.devRef .tc main_arg0) := by
  dsimp only [hostOps0]; after_results
theorem pre_arg1 : after hostOps0 W (Proc.devRef .tc main_arg1) = W (Proc.devRef .tc main_arg1) := by
  dsimp only [hostOps0]; after_results
theorem pre_arg3 : after hostOps0 W (Proc.devRef .tc main_arg3) = W (Proc.devRef .tc main_arg3) := by
  dsimp only [hostOps0]; after_results
theorem pre_arg5 : after hostOps0 W (Proc.devRef .tc main_arg5) = W (Proc.devRef .tc main_arg5) := by
  dsimp only [hostOps0]; after_results
theorem pre_arg6 : after hostOps0 W (Proc.devRef .tc main_arg6) = W (Proc.devRef .tc main_arg6) := by
  dsimp only [hostOps0]; after_results
theorem pre_arg7 : after hostOps0 W (Proc.devRef .tc main_arg7) = W (Proc.devRef .tc main_arg7) := by
  dsimp only [hostOps0]; after_results
theorem pre_arg8 : after hostOps0 W (Proc.devRef .tc main_arg8) = W (Proc.devRef .tc main_arg8) := by
  dsimp only [hostOps0]; after_results

/-! ## Between the regions -/

set_option maxHeartbeats 1000000 in
theorem mid_sum0 : after hostOps1 W (Proc.devRef .tc main_v19)
    = msgSum (W (Proc.devRef .tc main_v2_0)) (W (Proc.devRef .tc main_arg5)) (W (Proc.devRef .tc main_arg6)) := by
  unfold msgSum; dsimp only [hostOps1]; after_results_simp <;> rfl
set_option maxHeartbeats 1000000 in
theorem mid_cnt0 : after hostOps1 W (Proc.devRef .tc main_v24)
    = shapeCast S50000x1 (edgeCount (W (Proc.devRef .tc main_arg6))) shapeCasts_S50000_S50000x1 := by
  unfold edgeCount; dsimp only [hostOps1]; after_results_simp <;> rfl
set_option maxHeartbeats 1000000 in
theorem mid_sum1 : after hostOps1 W (Proc.devRef .tc main_v27)
    = msgSum (W (Proc.devRef .tc main_v2_1)) (W (Proc.devRef .tc main_arg7)) (W (Proc.devRef .tc main_arg8)) := by
  unfold msgSum; dsimp only [hostOps1]; after_results_simp <;> rfl
set_option maxHeartbeats 1000000 in
theorem mid_cnt1 : after hostOps1 W (Proc.devRef .tc main_v32)
    = shapeCast S50000x1 (edgeCount (W (Proc.devRef .tc main_arg8))) shapeCasts_S50000_S50000x1 := by
  unfold edgeCount; dsimp only [hostOps1]; after_results_simp <;> rfl

end Stretches

end Cert.KernelIdeal.Hand

end
-- ==== Proof.KernelValue.lean ====
/-
  The idealized kernel's result as one function of its nine arguments.

  Following the buffer contents through @main: the bias vectors are reshaped to rows; the first region leaves each
  relation's affine map of the features; the host gathers, sums per destination and counts; the second region leaves the
  two relations' means added.  Nothing here depends on the tiling any more.
-/
import proofs.«119673_j11716670783741_1_alg».proof.Proof.NamedRun
import proofs.«119673_j11716670783741_1_alg».proof.Proof.LinearValue
import proofs.«119673_j11716670783741_1_alg».proof.Proof.CombineValue
import proofs.«119673_j11716670783741_1_alg».proof.Proof.HostStretch

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.RelationMean

/-- The kernel's result: per relation the affine map of the features (bias as a reshaped row), gathered, summed per
    destination, divided by the reshaped count column raised to at least one; the two relations added. -/
def kernelValue (a0 : (⟨S50000x128, .f32⟩ : BufTy).Contents (Elt Ideal)) (a1 : (⟨S128x128, .f32⟩ : BufTy).Contents (Elt Ideal))
    (a2 : (⟨S128, .f32⟩ : BufTy).Contents (Elt Ideal)) (a3 : (⟨S128x128, .f32⟩ : BufTy).Contents (Elt Ideal))
    (a4 : (⟨S128, .f32⟩ : BufTy).Contents (Elt Ideal)) (a5 a6 a7 a8 : (⟨S800000, .i32⟩ : BufTy).Contents (Elt Ideal)) :
    (⟨S50000x128, .f32⟩ : BufTy).Contents (Elt Ideal) :=
  meanSumCol (M := 50000) (N := 128)
    (msgSum (F := Ideal) (affineRow (M := 50000) (K := 128) (N := 128) a0 a1 (shapeCast S1x128 a2 shapeCasts_S128_S1x128)) a5 a6)
    (shapeCast S50000x1 (edgeCount (F := Ideal) a6) shapeCasts_S50000_S50000x1)
    (msgSum (F := Ideal) (affineRow (M := 50000) (K := 128) (N := 128) a0 a3 (shapeCast S1x128 a4 shapeCasts_S128_S1x128)) a7 a8)
    (shapeCast S50000x1 (edgeCount (F := Ideal) a8) shapeCasts_S50000_S50000x1)

variable (m : (ℓ : Loc nD τ sig) → Buf (Elt Ideal) ℓ) (ρ : Dev nD → PrngReg)

/-! ## The first region's entry contents -/

theorem entry_feat (c : Dev nD) : V1 m ρ c main_arg0 = m ((c.tc : Thread nD τ).loc main_arg0) := pre_arg0 (W0 m ρ c)
theorem entry_w0 (c : Dev nD) : V1 m ρ c main_arg1 = m ((c.tc : Thread nD τ).loc main_arg1) := pre_arg1 (W0 m ρ c)
theorem entry_w1 (c : Dev nD) : V1 m ρ c main_arg3 = m ((c.tc : Thread nD τ).loc main_arg3) := pre_arg3 (W0 m ρ c)
theorem entry_b0 (c : Dev nD) : V1 m ρ c main_v0
    = shapeCast S1x128 (m ((c.tc : Thread nD τ).loc main_arg2)) shapeCasts_S128_S1x128 := pre_bias0 (W0 m ρ c)
theorem entry_b1 (c : Dev nD) : V1 m ρ c main_v1
    = shapeCast S1x128 (m ((c.tc : Thread nD τ).loc main_arg4)) shapeCasts_S128_S1x128 := pre_bias1 (W0 m ρ c)

/-! ## The first region's exit contents -/

/-- The first relation's transformed features, after the first region. -/
theorem exit_lin0 (c : Dev nD) : W2 m ρ c (Proc.devRef .tc main_v2_0)
    = affineRow (M := 50000) (K := 128) (N := 128) (m ((c.tc : Thread nD τ).loc main_arg0)) (m ((c.tc : Thread nD τ).loc main_arg1))
        (shapeCast S1x128 (m ((c.tc : Thread nD τ).loc main_arg2)) shapeCasts_S128_S1x128) := by
  refine (W2_arr m ρ c 5).trans ((final5 (V1 m ρ) c).trans ?_)
  show affineRow (M := 50000) (K := 128) (N := 128) (V1 m ρ c main_arg0) (V1 m ρ c main_arg1) (V1 m ρ c main_v0) = _
  rw [entry_feat m ρ c, entry_w0 m ρ c, entry_b0 m ρ c]

/-- The second relation's. -/
theorem exit_lin1 (c : Dev nD) : W2 m ρ c (Proc.devRef .tc main_v2_1)
    = affineRow (M := 50000) (K := 128) (N := 128) (m ((c.tc : Thread nD τ).loc main_arg0)) (m ((c.tc : Thread nD τ).loc main_arg3))
        (shapeCast S1x128 (m ((c.tc : Thread nD τ).loc main_arg4)) shapeCasts_S128_S1x128) := by
  refine (W2_arr m ρ c 6).trans ((final6 (V1 m ρ) c).trans ?_)
  show affineRow (M := 50000) (K := 128) (N := 128) (V1 m ρ c main_arg0) (V1 m ρ c main_arg3) (V1 m ρ c main_v1) = _
  rw [entry_feat m ρ c, entry_w1 m ρ c, entry_b1 m ρ c]

/-- The edge lists pass through the first stretch and the first region untouched. -/
theorem exit_src0 (c : Dev nD) : W2 m ρ c (Proc.devRef .tc main_arg5) = m ((c.tc : Thread nD τ).loc main_arg5) :=
  (W2_of_ne m ρ c main_arg5 (by decide)).trans (pre_arg5 (W0 m ρ c))
theorem exit_dst0 (c : Dev nD) : W2 m ρ c (Proc.devRef .tc main_arg6) = m ((c.tc : Thread nD τ).loc main_arg6) :=
  (W2_of_ne m ρ c main_arg6 (by decide)).trans (pre_arg6 (W0 m ρ c))
theorem exit_src1 (c : Dev nD) : W2 m ρ c (Proc.devRef .tc main_arg7) = m ((c.tc : Thread nD τ).loc main_arg7) :=
  (W2_of_ne m ρ c main_arg7 (by decide)).trans (pre_arg7 (W0 m ρ c))
theorem exit_dst1 (c : Dev nD) : W2 m ρ c (Proc.devRef .tc main_arg8) = m ((c.tc : Thread nD τ).loc main_arg8) :=
  (W2_of_ne m ρ c main_arg8 (by decide)).trans (pre_arg8 (W0 m ρ c))

/-! ## The second region's entry contents, and the result -/

/-- The result buffer after the run is `kernelValue` of the arguments as launched. -/
theorem result_eq (c : Dev nD) : W4 m ρ c (Proc.devRef .tc main_v33)
    = kernelValue (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) := by
  refine (W4_result m ρ c).trans ((final4 (V3 m ρ) c).trans ?_)
  have s0 : V3 m ρ c main_v19 = _ := mid_sum0 (W2 m ρ c)
  have c0 : V3 m ρ c main_v24 = _ := mid_cnt0 (W2 m ρ c)
  have s1 : V3 m ρ c main_v27 = _ := mid_sum1 (W2 m ρ c)
  have c1 : V3 m ρ c main_v32 = _ := mid_cnt1 (W2 m ρ c)
  show meanSumCol (M := 50000) (N := 128) (V3 m ρ c main_v19) (V3 m ρ c main_v24) (V3 m ρ c main_v27) (V3 m ρ c main_v32) = _
  rw [s0, c0, s1, c1, exit_lin0 m ρ c, exit_lin1 m ρ c, exit_src0 m ρ c, exit_dst0 m ρ c, exit_src1 m ρ c, exit_dst1 m ρ c]
  rfl

/-- Every weakly fair execution of the idealized kernel terminates with the result buffer at `kernelValue` of the
    arguments, and the arguments unchanged. -/
theorem run : θ_run defs (onTc (τ := τ) (main (F := Ideal))) ⟨m, fun _ => 0, ρ⟩ (fun r => ∀ c : Dev nD,
      r.2.mem ((c.tc : Thread nD τ).loc main_v33)
        = kernelValue (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run_named m ρ)

end Cert.KernelIdeal.Hand

end
-- ==== Proof.RefValue.lean ====
/-
  The idealized reference's result as one term of its nine arguments.

  Per relation: the features times the weights plus the bias spread over the rows; rows gathered at the edges' source
  numbers (a negative number counted from the end) and added into zeros at the destination numbers; ones added into
  zeros at the destination numbers; the sum divided by the count raised to at least one and spread along the row.  The two
  relations are added.  The term is the run's own, with its repeated parts named.
-/
import proofs.«119673_j11716670783741_1_alg».proof.Proof.Gen.ReferenceIdeal.Run

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- `x · w + b`, the bias spread to a row and over the rows. -/
def lin (x : (⟨S50000x128, .f32⟩ : BufTy).Contents (Elt F)) (w : (⟨S128x128, .f32⟩ : BufTy).Contents (Elt F))
    (b : (⟨S128, .f32⟩ : BufTy).Contents (Elt F)) : (⟨S50000x128, .f32⟩ : BufTy).Contents (Elt F) :=
  addf (Host.dotGeneral dot_S50000x128_S128x128_S50000x128_1_0_0_1_n_n none x w)
    (broadcastInDim S50000x128 ![0, 1] bcast_S1x128_S50000x128_0_1 (broadcastInDim S1x128 ![1] bcast_S128_S1x128_1 b))

/-- One relation's messages summed per destination node. -/
def msgSum (x : (⟨S50000x128, .f32⟩ : BufTy).Contents (Elt F)) (src dst : (⟨S800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- One relation's incoming edges counted per destination node. -/
def edgeCount (dst : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- A count raised to at least one, spread to a column and along the rows. -/
def spreadMax (c : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0
    (maximumf c (broadcastInDim S50000 ![] bcast_S_S50000 (constant S_ .f32 0x3F800000#32))))

/-- The reference's result. -/
def refValue (a0 : (⟨S50000x128, .f32⟩ : BufTy).Contents (Elt F)) (a1 : (⟨S128x128, .f32⟩ : BufTy).Contents (Elt F))
    (a2 : (⟨S128, .f32⟩ : BufTy).Contents (Elt F)) (a3 : (⟨S128x128, .f32⟩ : BufTy).Contents (Elt F))
    (a4 : (⟨S128, .f32⟩ : BufTy).Contents (Elt F)) (a5 a6 a7 a8 : (⟨S800000, .i32⟩ : BufTy).Contents (Elt F)) :
    (⟨S50000x128, .f32⟩ : BufTy).Contents (Elt F) :=
  addf (Host.divf (msgSum (lin a0 a1 a2) a5 a6) (spreadMax (edgeCount a6)))
    (Host.divf (msgSum (lin a0 a3 a4) a7 a8) (spreadMax (edgeCount a8)))

/-- Every weakly fair execution of the reference terminates with the result buffer at `refValue` of the arguments, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v46)
        = refValue (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.ReferenceIdeal.Value.run m ρ

end Cert.ReferenceIdeal.Hand

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.MeanForms.lean ====
/-
  The same two formulas in the spellings a host program gives them.

  * The affine map: a host program multiplies the matrices, spreads the bias vector `[N]` to a row and then over the rows,
    and adds.  Entry by entry that is `∑ k, x (p, k) * w (k, q) + b q`, which is also the affine map whose bias is held as
    the reshaped row `[1, N]`.
  * The two relations' means added: a host program raises each count vector to at least one, spreads it to a column and
    then along the rows, divides and adds.  Entry by entry that is `s0 (p, q) / max (c0 p) 1 + s1 (p, q) / max (c1 p) 1`,
    and holding each count as a reshaped column `[M, 1]` changes nothing.
-/
import proofs.«119673_j11716670783741_1_alg».proof.Proof.RelationMean
import proofs.«119673_j11716670783741_1_alg».proof.Proof.LibPlainDot
import proofs.«119673_j11716670783741_1_alg».proof.Proof.LibDense
import proofs.«119673_j11716670783741_1_alg».proof.Proof.LibColumnOfVector
import proofs.«119673_j11716670783741_1_alg».proof.Proof.LibRegionBlockSpread

noncomputable section

namespace Idealize.ShloMosaic.RelationMean

open Idealize.ShloMosaic Idealize.ShloMosaic.ValueIdx

/-- The host's `x · w + b` is the affine map with the bias held as the reshaped row. -/
theorem hostAffine_eq {M K N : ℕ} (d : DotDims ⟨2, ![M, K]⟩ ⟨2, ![K, N]⟩ ⟨2, ![M, N]⟩) (hd : d = DotDims.plain M K N)
    (prec : Option ContractPrecision) (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral d prec x w) (broadcastInDim ⟨2, ![M, N]⟩ ![0, 1] h2 (broadcastInDim ⟨2, ![1, N]⟩ ![1] h1 b))
      = affineRow x w (shapeCast ⟨2, ![1, N]⟩ b hc) := by
  funext i
  obtain ⟨p, q, rfl⟩ : ∃ (p : Fin M) (q : Fin N), i = ix2 p q := ⟨i 0, i 1, eq_ix2 i⟩
  rw [affineRow_apply, addf_apply, shapeCast_a_1a_apply, DenseLayer.inDimRow_apply]
  exact congrArg (· + b (ix1 q)) (PlainDot.dotGeneral_apply d hd prec .single x w p q)

/-- Holding each count as a reshaped column changes nothing. -/
theorem meanSumCol_shapeCast {M N : ℕ} (s0 s1 : (⟨2, ![M, N]⟩ : Shape).Idx → EReal) (c0 c1 : (⟨1, ![M]⟩ : Shape).Idx → EReal)
    (h : (⟨1, ![M]⟩ : Shape).ShapeCasts ⟨2, ![M, 1]⟩) :
    meanSumCol s0 (shapeCast ⟨2, ![M, 1]⟩ c0 h) s1 (shapeCast ⟨2, ![M, 1]⟩ c1 h) = meanSumVec s0 c0 s1 c1 := by
  funext i
  obtain ⟨p, q, rfl⟩ : ∃ (p : Fin M) (q : Fin N), i = ix2 p q := ⟨i 0, i 1, eq_ix2 i⟩
  rw [meanSumCol_apply, meanSumVec_apply, ColumnOfVector.shapeCast_a_a1_apply, ColumnOfVector.shapeCast_a_a1_apply]

/-- A count vector raised to at least one, spread to a column and along the rows, read at `(p, q)`. -/
theorem spreadMax_apply {M N : ℕ} (c : FVec Ideal ⟨1, ![M]⟩ .f32)
    (hb : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    broadcastInDim ⟨2, ![M, N]⟩ ![0, 1] h2 (broadcastInDim ⟨2, ![M, 1]⟩ ![0] h1
        (maximumf c (broadcastInDim ⟨1, ![M]⟩ ![] hb (constant (F := Ideal) ⟨0, ![]⟩ .f32 0x3F800000#32)))) (ix2 p q)
      = max (c (ix1 p)) oneWord := by
  rw [KeepDims.broadcastInDim_a1_ab_apply, KeepDims.broadcastInDim_a_a1_apply, maximumf_apply]
  exact congrArg (max (c (ix1 p))) (broadcastInDim_apply ![] hb _ (ix1 p) ix0 (fun a => a.elim0))

/-- The host's spelling of the two relations' means added. -/
theorem hostMean_eq {M N : ℕ} (s0 s1 : FVec Ideal ⟨2, ![M, N]⟩ .f32) (c0 c1 : FVec Ideal ⟨1, ![M]⟩ .f32)
    (hb : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) :
    addf
        (Host.divf s0 (broadcastInDim ⟨2, ![M, N]⟩ ![0, 1] h2 (broadcastInDim ⟨2, ![M, 1]⟩ ![0] h1
          (maximumf c0 (broadcastInDim ⟨1, ![M]⟩ ![] hb (constant (F := Ideal) ⟨0, ![]⟩ .f32 0x3F800000#32))))))
        (Host.divf s1 (broadcastInDim ⟨2, ![M, N]⟩ ![0, 1] h2 (broadcastInDim ⟨2, ![M, 1]⟩ ![0] h1
          (maximumf c1 (broadcastInDim ⟨1, ![M]⟩ ![] hb (constant (F := Ideal) ⟨0, ![]⟩ .f32 0x3F800000#32))))))
      = meanSumVec s0 c0 s1 c1 := by
  funext i
  obtain ⟨p, q, rfl⟩ : ∃ (p : Fin M) (q : Fin N), i = ix2 p q := ⟨i 0, i 1, eq_ix2 i⟩
  rw [meanSumVec_apply, addf_apply]
  show Ideal.div (s0 (ix2 p q)) _ + Ideal.div (s1 (ix2 p q)) _ = _
  rw [spreadMax_apply, spreadMax_apply]

end Idealize.ShloMosaic.RelationMean

end
-- ==== Proof.SameValue.lean ====
/-
  The two idealized programs compute one function.

  Both gather, sum per destination and count with the same host operations, so those are compared as whole functions and
  never opened.  What differs is spelling: the reference spreads the bias vector where the kernel reshapes it to a row, and
  spreads the raised count where the kernel reshapes the count to a column and raises and spreads it block by block.
  Entry by entry both are `∑ k, x (n, k) * w (k, d) + b d` and `s (n, d) / max (c n) 1`.  No law of the extended reals is
  used beyond these readings, so the inputs' finiteness is not needed.
-/
import proofs.«119673_j11716670783741_1_alg».proof.Proof.KernelValue
import proofs.«119673_j11716670783741_1_alg».proof.Proof.RefValue
import proofs.«119673_j11716670783741_1_alg».proof.Proof.MeanForms

set_option maxRecDepth 16384

noncomputable section

namespace Cert.Proof.SameValue

open Idealize.ShloMosaic Idealize.ShloMosaic.RelationMean

/-- The per-destination message sum is the same host function in both programs. -/
theorem msgSum_same : @Cert.ReferenceIdeal.Hand.msgSum Ideal _ = @Cert.KernelIdeal.Hand.msgSum Ideal _ := rfl

/-- The per-destination edge count is the same host function in both programs. -/
theorem edgeCount_same : @Cert.ReferenceIdeal.Hand.edgeCount Ideal _ = @Cert.KernelIdeal.Hand.edgeCount Ideal _ := rfl

/-- The reference's affine map is the kernel's, whose bias is the reshaped row. -/
theorem lin_same (x : FVec Ideal ⟨2, ![50000, 128]⟩ .f32) (w : FVec Ideal ⟨2, ![128, 128]⟩ .f32) (b : FVec Ideal ⟨1, ![128]⟩ .f32) :
    Cert.ReferenceIdeal.Hand.lin (F := Ideal) x w b
      = affineRow (M := 50000) (K := 128) (N := 128) x w
          (shapeCast Cert.KernelIdeal.S1x128 b Cert.KernelIdeal.Facts₀.shapeCasts_S128_S1x128) :=
  hostAffine_eq _ rfl none x w b _ _ _

/-- The reference's result is the kernel's, as functions of the nine arguments. -/
theorem value_same (a0 : FVec Ideal ⟨2, ![50000, 128]⟩ .f32) (a1 : FVec Ideal ⟨2, ![128, 128]⟩ .f32) (a2 : FVec Ideal ⟨1, ![128]⟩ .f32)
    (a3 : FVec Ideal ⟨2, ![128, 128]⟩ .f32) (a4 : FVec Ideal ⟨1, ![128]⟩ .f32) (a5 a6 a7 a8 : IVec ⟨1, ![800000]⟩ 32) :
    Cert.ReferenceIdeal.Hand.refValue (F := Ideal) a0 a1 a2 a3 a4 a5 a6 a7 a8
      = Cert.KernelIdeal.Hand.kernelValue a0 a1 a2 a3 a4 a5 a6 a7 a8 := by
  unfold Cert.ReferenceIdeal.Hand.refValue Cert.ReferenceIdeal.Hand.spreadMax
  refine (hostMean_eq (M := 50000) (N := 128) _ _ _ _ _ _ _).trans ?_
  unfold Cert.KernelIdeal.Hand.kernelValue
  refine Eq.trans ?_ (meanSumCol_shapeCast (M := 50000) (N := 128) _ _ _ _ _).symm
  rw [lin_same, lin_same, msgSum_same, edgeCount_same]

end Cert.Proof.SameValue

end
-- ==== Proof.lean ====
/-
  Two relations' mean aggregation of linearly transformed node features: a two-region kernel against plain jnp.

  For each of two relations the node features `x : [50000, 128]` are mapped to `x · W + b`; each edge carries its source
  node's row to its destination node, where the rows are added and the edges counted; a node's output is, summed over the
  relations, its row sum divided by `max (count, 1)`.  The kernel computes the affine maps in a first region (ten blocks
  of 5000 rows, bias as a `[1, 128]` row), gathers, sums and counts on the host exactly as the reference does, and
  divides and adds in a second region (ten blocks of 5000 rows, counts as `[50000, 1]` columns).

  At the ideal instance a change of float format is the identity and a matrix product is the plain sum over the
  contracted index, so each region's result array is one whole-array function of what the region was entered with
  (LinearValue, CombineValue), the host stretches are named as they stand (HostStretch), and the kernel's result is one
  function of its nine arguments (KernelValue).  The reference's run gives its result as one term (RefValue).  The two are
  equal entry by entry (SameValue): `∑ k, x (n, k) * W (k, d) + b d` for the affine maps and
  `s (n, d) / max (c n) 1` for the means, the shared gather and scatter never opened.  No finiteness is used.

  The three frames: both kernel programs' are the generated frame certificates; the reference's is its run with the result
  dropped.  The idealization rewrote nothing, so `preserves` is trivial.
-/
import proofs.«119673_j11716670783741_1_alg».proof.Defs
import proofs.«119673_j11716670783741_1_alg».proof.Proof.Gen.Kernel
import proofs.«119673_j11716670783741_1_alg».proof.Proof.Gen.Kernel.Skeleton
import proofs.«119673_j11716670783741_1_alg».proof.Proof.Gen.Kernel.Launch
import proofs.«119673_j11716670783741_1_alg».proof.Proof.Gen.Kernel.Points
import proofs.«119673_j11716670783741_1_alg».proof.Proof.Gen.Kernel.Frame
import proofs.«119673_j11716670783741_1_alg».proof.Proof.Gen.KernelIdeal
import proofs.«119673_j11716670783741_1_alg».proof.Proof.Gen.KernelIdeal.Skeleton
import proofs.«119673_j11716670783741_1_alg».proof.Proof.Gen.KernelIdeal.Launch
import proofs.«119673_j11716670783741_1_alg».proof.Proof.Gen.KernelIdeal.Points
import proofs.«119673_j11716670783741_1_alg».proof.Proof.Gen.KernelIdeal.Frame
import proofs.«119673_j11716670783741_1_alg».proof.Proof.Gen.ReferenceIdeal
import proofs.«119673_j11716670783741_1_alg».proof.Proof.Gen.Pre_finite_inputs
import proofs.«119673_j11716670783741_1_alg».proof.Proof.Gen.ReferenceIdeal.Run
import proofs.«119673_j11716670783741_1_alg».proof.Proof.KernelValue
import proofs.«119673_j11716670783741_1_alg».proof.Proof.RefValue
import proofs.«119673_j11716670783741_1_alg».proof.Proof.SameValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the nine arguments, both idealized programs end with the result buffer at the
    kernel's function of those arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8⟩ := hagree c
  rw [e0, e1, e2, e3, e4, e5, e6, e7, e8]
  exact Cert.Proof.SameValue.value_same _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
